-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S4096x4096 : Shape := ⟨2, ![4096, 4096]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x1024x4096 .f32) (main_arg1 : FVec F S4096x4096 .f32) (main_arg2 : IVec S4096x4096 32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x1024x4096 : Shape := ⟨3, ![4, 1024, 4096]⟩
abbrev S4096x4096 : Shape := ⟨2, ![4096, 4096]⟩
abbrev S128x32x128x32 : Shape := ⟨4, ![128, 32, 128, 32]⟩
abbrev S_ : Shape := ⟨0, ![]⟩
abbrev S128x128 : Shape := ⟨2, ![128, 128]⟩
abbrev S128x1x128x1 : Shape := ⟨4, ![128, 1, 128, 1]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096x4096, .i32⟩
  | .hbm, ⟨3, _⟩ => ⟨S128x32x128x32, .i32⟩
  | .hbm, ⟨4, _⟩ => ⟨S128x32x128x32, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .i1⟩
  | .hbm, ⟨10, _⟩ => ⟨S128x32x128x32, .f32⟩
  | .hbm, ⟨11, _⟩ => ⟨S128x1x128x1, .i1⟩
  | .hbm, ⟨12, _⟩ => ⟨S128x1x128x1, .f32⟩
  | .hbm, ⟨13, _⟩ => ⟨S128x32x128x32, .f32⟩
  | .hbm, ⟨14, _⟩ => ⟨S128x32x128x32, .f32⟩
  | .hbm, ⟨15, _⟩ => ⟨S4096x4096, .f32⟩
  | .hbm, ⟨16, _⟩ => ⟨S4096x4096, .bf16⟩
  | .hbm, ⟨17, _⟩ => ⟨S4096x4096, .f32⟩
  | .hbm, ⟨18, _⟩ => ⟨S4096x4096, .bf16⟩
  | .hbm, ⟨19, _⟩ => ⟨S4096x4096, .f32⟩
  | .hbm, ⟨20, _⟩ => ⟨S4x1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x4096_S128x32x128x32 : S4096x4096.ShapeCasts S128x32x128x32
  reducesTo_S128x32x128x32_S128x128_d1_3 : S128x32x128x32.ReducesTo [1, 3] S128x128
  h_S_ : 0 < S_.numel
  bcast_S_S128x128 : S_.BroadcastsInDim S128x128 (![] : Fin 0 → Fin S128x128.rank)
  bcast_S128x128_S128x1x128x1_0_2 : S128x128.BroadcastsInDim S128x1x128x1 (![0, 2] : Fin 2 → Fin S128x1x128x1.rank)
  bcast_S128x1x128x1_S128x32x128x32_0_1_2_3 : S128x1x128x1.BroadcastsInDim S128x32x128x32 (![0, 1, 2, 3] : Fin 4 → Fin S128x32x128x32.rank)
  shapeCasts_S128x32x128x32_S4096x4096 : S128x32x128x32.ShapeCasts S4096x4096
  bitsLt_bf16_f32 : FTy.bits .bf16 < FTy.bits .f32
  shapeCasts_S4x1024x4096_S4096x4096 : S4x1024x4096.ShapeCasts S4096x4096
  shapeCasts_S4096x4096_S4x1024x4096 : S4096x4096.ShapeCasts S4x1024x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_call0_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x1024x4096 : Shape := ⟨3, ![4, 1024, 4096]⟩
abbrev S4096x4096 : Shape := ⟨2, ![4096, 4096]⟩
abbrev S128x32x128x32 : Shape := ⟨4, ![128, 32, 128, 32]⟩
abbrev S_ : Shape := ⟨0, ![]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩

abbrev nBuf : Space → Nat
  | .hbm => 17
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096x4096, .i32⟩
  | .hbm, ⟨3, _⟩ => ⟨S128x32x128x32, .i32⟩
  | .hbm, ⟨4, _⟩ => ⟨S128x32x128x32, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .i1⟩
  | .hbm, ⟨10, _⟩ => ⟨S128x32x128, .i1⟩
  | .hbm, ⟨11, _⟩ => ⟨S4096x128, .i1⟩
  | .hbm, ⟨12, _⟩ => ⟨S4096x128x32, .i1⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S4096x4096_S128x32x128x32 : S4096x4096.ShapeCasts S128x32x128x32
  reducesTo_S128x32x128x32_S128x128_d1_3 : S128x32x128x32.ReducesTo [1, 3] S128x128
  h_S_ : 0 < S_.numel
  bcast_S_S128x128 : S_.BroadcastsInDim S128x128 (![] : Fin 0 → Fin S128x128.rank)
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  dot_S4x1024x4096_S4096x4096_S4x1024x4096_2_1_01_0_n_n_wf : DotDims.WF S4x1024x4096 S4096x4096 S4x1024x4096 [2] [1] [0, 1] [0] [] []

variable [Facts₀]

def dot_S4x1024x4096_S4096x4096_S4x1024x4096_2_1_01_0_n_n : DotDims S4x1024x4096 S4096x4096 S4x1024x4096 where
  lhsContracting := [2]
  rhsContracting := [1]
  lhsNonContracting := [0, 1]
  rhsNonContracting := [0]
  lhsBatch := []
  rhsBatch := []
  wf := dot_S4x1024x4096_S4096x4096_S4x1024x4096_2_1_01_0_n_n_wf

class Facts : Prop extends Facts₀ where

variable [Facts]
-- ==== Proof.Spec.lean ====
/-
  The mathematics both programs compute, stated over plain arrays with no program in sight: the product of the data
  with the block-masked weight,
      out[b, s, n] = Σ_k  data[b, s, k] · ( weight[n, k] · mask[n / 32, k / 32] ),      k < 4096,
  over the extended reals, and the one law that joins the two programs: a sum of 4096 terms is the sum of its four
  consecutive runs of 1024 terms added in order from zero. The kernel computes the runs one reduction step at a time;
  the reference contracts the whole axis at once.
-/
import Idealize.ShloMosaic.PureOps.Ideal
import Idealize.ShloMosaic.Lib.ValueIdx
import Mathlib.Algebra.BigOperators.Fin

noncomputable section

namespace Cert.BlockMatmul

open Idealize.ShloMosaic Idealize.ShloMosaic.ValueIdx

/-- A sum over 4096 terms is the sum of its four consecutive runs of 1024 terms, taken in order from zero: the
    regrouping needs only that addition is commutative and associative, so it holds in any additive commutative
    monoid — the extended reals included, infinities and all. -/
theorem sum_four_runs {M : Type*} [AddCommMonoid M] (g : Fin 4096 → M) :
    ∑ k : Fin 4096, g k
      = (((0 + ∑ b : Fin 1024, g ⟨b.val, by omega⟩) + ∑ b : Fin 1024, g ⟨1024 + b.val, by omega⟩)
          + ∑ b : Fin 1024, g ⟨2048 + b.val, by omega⟩) + ∑ b : Fin 1024, g ⟨3072 + b.val, by omega⟩ := by
  rw [zero_add]
  have e3 := Fin.sum_univ_add (a := 3072) (b := 1024) g
  have e2 := Fin.sum_univ_add (a := 2048) (b := 1024) (fun i => g (Fin.castAdd 1024 i))
  have e1 := Fin.sum_univ_add (a := 1024) (b := 1024) (fun i => g (Fin.castAdd 1024 (Fin.castAdd 1024 i)))
  rw [e2, e1] at e3
  exact e3

/-- The product of the data with the block-masked weight, at output entry (b, s, n): `mask` is the pooled 128 × 128
    block mask (one bit per 32 × 32 block of the weight), read as 0.0 or 1.0. -/
def maskedProduct (data : (⟨3, ![4, 1024, 4096]⟩ : Shape).Idx → EReal) (weight : (⟨2, ![4096, 4096]⟩ : Shape).Idx → EReal)
    (mask : (⟨2, ![128, 128]⟩ : Shape).Idx → BitVec 1) (b : Fin 4) (s : Fin 1024) (n : Fin 4096) : EReal :=
  ∑ k : Fin 4096, data (ix3 b s k)
    * (weight (ix2 n k) * FloatOps.uitofp (F := Ideal) .f32 (mask (ix2 (⟨n.val / 32, by omega⟩ : Fin 128) (⟨k.val / 32, by omega⟩ : Fin 128))))

end Cert.BlockMatmul

end
-- ==== Proof.RefValue.lean ====
/-
  The reference program's result read at an entry: its `dot_general` contracts the data's last axis with the last axis
  of the masked weight, the masked weight is the weight times the repeated block mask, and the repeated block mask at
  (n, k) is the pooled block mask at (n / 32, k / 32) — so the result is the masked product of the specification.
-/
import proofs.«118523_j60327110639757_2_alg».proof.Proof.RefRead
import proofs.«118523_j60327110639757_2_alg».proof.Proof.Spec

noncomputable section

open Idealize.ShloMosaic Idealize.ShloMosaic.TcCoe Idealize.SL.Sem

namespace Cert.ReferenceIdeal.RefValue

open Cert.ReferenceIdeal Cert.ReferenceIdeal.ReadP Idealize.ShloMosaic.ValueIdx

/-- The reference repeats the pooled block mask 32 times along each axis (a broadcast and a reshape per axis): entry
    (n, k) of the repeated mask is entry (n / 32, k / 32) of the block mask. -/
theorem mask_repeated (x2 : (⟨S4096x4096, .i32⟩ : BufTy).Contents (Elt Ideal)) (n k : Fin 4096) :
    val_main_v8 (F := Ideal) x2 (ix2 n k)
      = val_main_v4 (F := Ideal) x2 (ix2 (⟨n.val / 32, by omega⟩ : Fin 128) (⟨k.val / 32, by omega⟩ : Fin 128)) := by
  have hn := n.isLt
  have hk := k.isLt
  rw [val_main_v8_apply, val_main_v7_apply, val_main_v6_apply, val_main_v5_apply]
  refine congrArg _ (funext fun a => Fin.ext ?_)
  match a with
  | ⟨0, _⟩ =>
    show ((n.val * 4096 + k.val) / 4096 * 128 + (n.val * 4096 + k.val) / 32 % 128) / 4096 = n.val / 32
    omega
  | ⟨1, _⟩ =>
    show ((n.val * 4096 + k.val) / 4096 * 128 + (n.val * 4096 + k.val) / 32 % 128) % 128 = k.val / 32
    omega

/-- The reference's result at entry (b, s, n) is the masked product. -/
theorem reference_apply (x0 : (⟨S4x1024x4096, .f32⟩ : BufTy).Contents (Elt Ideal)) (x1 : (⟨S4096x4096, .f32⟩ : BufTy).Contents (Elt Ideal))
    (x2 : (⟨S4096x4096, .i32⟩ : BufTy).Contents (Elt Ideal)) (b : Fin 4) (s : Fin 1024) (n : Fin 4096) :
    val_main_v11 (F := Ideal) x0 x1 x2 (ix3 b s n)
      = Cert.BlockMatmul.maskedProduct x0 x1 (val_main_v4 (F := Ideal) x2) b s n := by
  rw [val_main_v11_apply]
  unfold Cert.BlockMatmul.maskedProduct
  refine Finset.sum_congr rfl fun k _ => ?_
  have el : lidx_main_v11 (ix3 b s n) k = ix3 b s k := funext fun a => Fin.ext (by
    match a with
    | ⟨0, _⟩ => rfl
    | ⟨1, _⟩ => rfl
    | ⟨2, _⟩ => rfl)
  have er : ridx_main_v11 (ix3 b s n) k = ix2 n k := funext fun a => Fin.ext (by
    match a with
    | ⟨0, _⟩ => rfl
    | ⟨1, _⟩ => rfl)
  rw [el, er, val_main_v10_apply, val_main_v9_apply, mask_repeated]
  rfl

end Cert.ReferenceIdeal.RefValue

end
-- ==== Proof.Accumulate.lean ====
/-
  The accumulator of the blocked matrix product, read off the kernel's frame run.

  The kernel computes one 1024 × 1024 block of the product per (i, j) in four reduction steps k = 0, 1, 2, 3 (the
  innermost grid axis). A scratch block carries the partial sum between the steps: step 0 first stores the zero block
  there, every step adds the product of its two input blocks to what the scratch holds, and step 3 copies the scratch
  into the output block, which is then written back. The frame run records what each of the three kinds of step
  (first / middle / last) leaves in the scratch and in the output's staging buffer as lists of stored pieces; here each
  list is read back as a value — one covering store, or a covering store over a zero store read back — and the four
  steps of one output block are chained: the block written back is
      step(t3, step(t2, step(t1, step(t0, zero))))      where  step(t, acc) = acc + A_blk(t) · B_blk(t)ᵀ.
  Only four consecutive points are involved, because the first step of a block resets the scratch: no induction over
  the grid is needed.
-/
import proofs.«118523_j60327110639757_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The zero offset of every whole-block load and store. -/
theorem hz : (![0, 0] : Fin 2 → Nat) = fun _ => 0 := funext fun a => by fin_cases a <;> rfl

/-- A middle step leaves in the scratch its one covering store: the step applied to the two input blocks and to what
    the scratch held. -/
theorem scratch_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]

/-- The last step leaves the same in the scratch. -/
theorem scratch_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]

/-- The last step then stores into the output block what it has just stored into the scratch (a load covered by that
    store). -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

/-- The first step stores the zero block into the scratch, reads it back, and leaves the step applied to zero. -/
theorem scratch_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-! ## The accumulator along the reduction axis -/

variable (m : (ℓ : Loc nD τ sig) → Buf (Elt F) ℓ)

/-- After the first reduction step of an output block the scratch holds the zero block plus that step's product. -/
theorem scratch_first (c : Dev nD) (t : Fin cfg0.N) (h0 : t.val % 4 = 0) :
    (outsAt0 m c t.val t.isLt).2 = k0_pay2 (iblk m c 0 t) (iblk m c 1 t) k0_pay1 := by
  have h1 : ¬t.val % 4 = 3 := by omega
  rw [outsAt0_A m c t h0 h1]
  dsimp only
  exact scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After a middle reduction step the scratch holds what the step before left plus this step's product. -/
theorem scratch_middle (c : Dev nD) (t : Fin cfg0.N) (h0 : ¬t.val % 4 = 0) (h1 : ¬t.val % 4 = 3) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- At the last reduction step the output block is stored with what the step before left plus this step's product. -/
theorem block_last (c : Dev nD) (t : Fin cfg0.N) (h1 : t.val % 4 = 3) :
    (outsAt0 m c t.val t.isLt).1
      = k0_pay2 (iblk m c 0 t) (iblk m c 1 t) (outsAt0 m c (t.val - 1) (Nat.lt_of_le_of_lt (Nat.sub_le _ _) t.isLt)).2 := by
  have h0 : ¬t.val % 4 = 0 := by omega
  rw [outsAt0_C m c t h0 h1]
  dsimp only
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The same with the step before named as a grid point of its own. -/
theorem scratch_middle_of (c : Dev nD) (t s : Fin cfg0.N) (hs : s.val + 1 = t.val) (h0 : ¬t.val % 4 = 0) (h1 : ¬t.val % 4 = 3) :
    (outsAt0 m c t.val t.isLt).2 = k0_pay2 (iblk m c 0 t) (iblk m c 1 t) (outsAt0 m c s.val s.isLt).2 := by
  obtain ⟨s, hs'⟩ := s
  obtain rfl : s = t.val - 1 := by dsimp only at hs; omega
  exact scratch_middle m c t h0 h1

/-- The last step with the step before named as a grid point of its own. -/
theorem block_last_of (c : Dev nD) (t s : Fin cfg0.N) (hs : s.val + 1 = t.val) (h1 : t.val % 4 = 3) :
    (outsAt0 m c t.val t.isLt).1 = k0_pay2 (iblk m c 0 t) (iblk m c 1 t) (outsAt0 m c s.val s.isLt).2 := by
  obtain ⟨s, hs'⟩ := s
  obtain rfl : s = t.val - 1 := by dsimp only at hs; omega
  exact block_last m c t h1

/-- THE BLOCK WRITTEN BACK at the end of an output block's four reduction steps `t0, t1, t2, t3` (consecutive grid
    points, the first at a multiple of four): the zero block plus the four steps' products, added in step order. -/
theorem block_written (c : Dev nD) (t0 t1 t2 t3 : Fin cfg0.N) (h0 : t0.val % 4 = 0) (h1 : t0.val + 1 = t1.val)
    (h2 : t1.val + 1 = t2.val) (h3 : t2.val + 1 = t3.val) :
    (outsAt0 m c t3.val t3.isLt).1
      = k0_pay2 (iblk m c 0 t3) (iblk m c 1 t3)
          (k0_pay2 (iblk m c 0 t2) (iblk m c 1 t2)
            (k0_pay2 (iblk m c 0 t1) (iblk m c 1 t1)
              (k0_pay2 (iblk m c 0 t0) (iblk m c 1 t0) k0_pay1))) := by
  rw [block_last_of m c t3 t2 h3 (by omega), scratch_middle_of m c t2 t1 h2 (by omega) (by omega),
    scratch_middle_of m c t1 t0 h1 (by omega) (by omega), scratch_first m c t0 h0]

end Cert.KernelIdeal.Acc

end
-- ==== Proof.StepValue.lean ====
/-
  One reduction step of the blocked matrix product as a value: `acc + a · bᵀ` for two 1024 × 1024 blocks, entry by
  entry over the extended reals — the accumulator's entry plus the sum over the shared axis of the products of the two
  blocks' entries. (The matrix unit is given a zero accumulator and the sum is then added to the scratch's contents;
  the shape casts of the body are identities.)
-/
import proofs.«118523_j60327110639757_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Step

open Cert.KernelIdeal Cert.KernelIdeal.Gen Idealize.ShloMosaic.ValueIdx

variable {F : FTy → Type} [FloatOps F]

/-- The step's payload with its identity shape casts removed. -/
theorem step_eq (a b : Vec F S1024x1024 .bf16) (acc : Vec F S1024x1024 .f32) :
    k0_pay2 a b acc = addf acc (matmul dot_S1024x1024_S1024x1024_S1024x1024_1_1_0_0_n_n none a b (constant S1024x1024 .f32 0x00000000#32)) := by
  unfold k0_pay2
  simp only [shapeCast_self]

/-- The reset's payload: the splat of +0.0. -/
theorem zero_eq : (k0_pay1 : FVec F S1024x1024 .f32) = broadcast S1024x1024 (Scalar.ofBits .f32 0x00000000#32) := by
  unfold k0_pay1
  simp only [shapeCast_self]

/-! ## One reduction step at an entry, over the extended reals -/

/-- The step's contraction: both 1024 × 1024 blocks contracted along their last axis. -/
abbrev DD : DotDims S1024x1024 S1024x1024 S1024x1024 := dot_S1024x1024_S1024x1024_S1024x1024_1_1_0_0_n_n

/-- The first operand is read at the output entry's row; -/
theorem lhs_row (j : S1024x1024.Idx) (q : DD.contr.Idx) : (DD.lhsIdx j q 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl

/-- the second at the output entry's column, as ITS row (it enters transposed). -/
theorem rhs_row (j : S1024x1024.Idx) (q : DD.contr.Idx) : (DD.rhsIdx j q 0).val = (j 1).val := by
  unfold DotDims.rhsIdx
  rw [dif_neg (show ¬(0 : Fin S1024x1024.rank) ∈ DD.rhsBatch by decide), dif_pos (show (0 : Fin S1024x1024.rank) ∈ DD.rhsNonContracting by decide)]
  rfl

/-- One reduction step at entry (p, r): the accumulator's entry plus the product of row p of the first block with
    row r of the second (both blocks are read along their last axis: the second operand enters transposed). -/
theorem step_apply (a b : Vec Ideal S1024x1024 .bf16) (acc : Vec Ideal S1024x1024 .f32) (p r : Fin 1024) :
    k0_pay2 (F := Ideal) a b acc (ix2 p r) = acc (ix2 p r) + ∑ k : Fin 1024, a (ix2 p k) * b (ix2 r k) := by
  rw [step_eq]
  show acc (ix2 p r) + FloatOps.matmul (F := Ideal) DD none a b (constant S1024x1024 .f32 0x00000000#32) (ix2 p r) = _
  rw [Ideal.matmul_constant_zero_apply, ← Equiv.sum_comp (contrEquiv1 DD 1024 rfl rfl).symm]
  refine congrArg _ (Finset.sum_congr rfl fun k _ => ?_)
  have hk := contrEquiv1_symm_val DD 1024 rfl rfl k
  have el : DD.lhsIdx (ix2 p r) ((contrEquiv1 DD 1024 rfl rfl).symm k) = ix2 p k := funext fun x => Fin.ext (by
    match x with
    | ⟨0, _⟩ => exact lhs_row _ _
    | ⟨1, _⟩ => exact (DD.lhsIdx_val_of_single rfl _ _).trans hk)
  have er : DD.rhsIdx (ix2 p r) ((contrEquiv1 DD 1024 rfl rfl).symm k) = ix2 r k := funext fun x => Fin.ext (by
    match x with
    | ⟨0, _⟩ => exact rhs_row _ _
    | ⟨1, _⟩ => exact (DD.rhsIdx_val_of_single rfl _ _).trans hk)
  rw [el, er]

/-- The reset block is zero everywhere. -/
theorem zero_apply (y : S1024x1024.Idx) : k0_pay1 (F := Ideal) y = 0 := by
  rw [zero_eq]
  show Ideal.ofBits .f32 0x00000000#32 = 0
  exact Ideal.ofBits_zero_f32

end Cert.KernelIdeal.Step

end
-- ==== Proof.Blocks.lean ====
/-
  The blocks the kernel's windows read, as entries of the whole arrays: the grid's 64 points are (i, j, k) with k
  fastest, the first operand's block at a point is block (i, k) of the 4096 × 4096 operand, the second's block (j, k);
  an entry (p, q) of block (a, b) is entry (1024·a + p, 1024·b + q) of the array.
-/
import proofs.«118523_j60327110639757_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The grid runs over (i, j, k) with k fastest: point t is (t / 16, t / 4 % 4, t % 4). The first operand's block at t
    is (i, k), the second's (j, k), the output's (i, j) — the printed index maps, decided over the 64 points. -/
theorem index_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Entry (p, k) of the first operand's block at point t is entry (1024·i + p, 1024·k + k') of the operand. -/
theorem lhs_block (c : Dev nD) (t : Fin cfg0.N) (p k : Fin 1024) (M K : Fin 4096)
    (hM : M.val = t.val / 16 * 1024 + p.val) (hK : K.val = t.val % 4 * 1024 + k.val) :
    iblk m c 0 t (ix2 p k) = V m c main_call0_v13 (ix2 M K) := by
  obtain ⟨e0, e1, -, -, -, -⟩ := index_facts t
  unfold iblk
  rw [View.read_apply]
  show V m c main_call0_v13 (((cfg0.win 0).blk t).view.emb (ix2 p k)) = V m c main_call0_v13 (ix2 M K)
  refine congrArg _ (funext fun a => Fin.ext ?_)
  match a with
  | ⟨0, _⟩ => show win0_0.index t (0 : Fin 2) * 1024 + 1 * p.val = M.val; rw [e0, hM]; omega
  | ⟨1, _⟩ => show win0_0.index t (1 : Fin 2) * 1024 + 1 * k.val = K.val; rw [e1, hK]; omega

/-- Entry (r, k) of the second operand's block at point t is entry (1024·j + r, 1024·k + k') of the operand. -/
theorem rhs_block (c : Dev nD) (t : Fin cfg0.N) (r k : Fin 1024) (N K : Fin 4096)
    (hN : N.val = t.val / 4 % 4 * 1024 + r.val) (hK : K.val = t.val % 4 * 1024 + k.val) :
    iblk m c 1 t (ix2 r k) = V m c main_call0_v11 (ix2 N K) := by
  obtain ⟨-, -, e2, e3, -, -⟩ := index_facts t
  unfold iblk
  rw [View.read_apply]
  show V m c main_call0_v11 (((cfg0.win 1).blk t).view.emb (ix2 r k)) = V m c main_call0_v11 (ix2 N K)
  refine congrArg _ (funext fun a => Fin.ext ?_)
  match a with
  | ⟨0, _⟩ => show win0_1.index t (0 : Fin 2) * 1024 + 1 * r.val = N.val; rw [e2, hN]; omega
  | ⟨1, _⟩ => show win0_1.index t (1 : Fin 2) * 1024 + 1 * k.val = K.val; rw [e3, hK]; omega

end Cert.KernelIdeal.Blocks

end
-- ==== Proof.KernelValue.lean ====
/-
  The kernel's result array, read off its frame run: the whole product of the two operands.

  The output window's block (i, j) is written back once, after the fourth reduction step of (i, j); what is written is
  the zero block plus the four steps' products (Accumulate.lean), entry by entry four sums of 1024 products each
  (StepValue.lean) over the blocks (i, k) and (j, k) of the operands (Blocks.lean) — and four consecutive runs of 1024
  terms added in order from zero are the sum of all 4096 (Spec.lean): block (i, j) of the product. The sixteen blocks
  written back tile the 4096 × 4096 output, so the array ends at the product; the one host operation after the kernel
  reshapes it to (4, 1024, 4096).
-/
import proofs.«118523_j60327110639757_2_alg».proof.Proof.Accumulate
import proofs.«118523_j60327110639757_2_alg».proof.Proof.StepValue
import proofs.«118523_j60327110639757_2_alg».proof.Proof.Blocks
import proofs.«118523_j60327110639757_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Product

open Cert.KernelIdeal Cert.KernelIdeal.Gen Idealize.ShloMosaic.ValueIdx

variable (m : (ℓ : Loc nD τ sig) → Buf (Elt Ideal) ℓ) (ρ : Dev nD → PrngReg)

/-- The two operands of the kernel's product, as the kernel finds them. -/
abbrev lhs (c : Dev nD) : S4096x4096.Idx → EReal := V m c main_call0_v13
abbrev rhs (c : Dev nD) : S4096x4096.Idx → EReal := V m c main_call0_v11

/-- The whole product: entry (M, N) is the sum over the shared axis of lhs[M, k] · rhs[N, k]. -/
def product (c : Dev nD) : S4096x4096.Idx → EReal :=
  fun j => ∑ k : Fin 4096, lhs m c (ix2 (j 0) k) * rhs m c (ix2 (j 1) k)

/-- Four reduction steps from the zero block, at an entry: the four partial sums added in order from zero. -/
theorem four_steps_apply (a0 b0 a1 b1 a2 b2 a3 b3 : Vec Ideal S1024x1024 .bf16) (p r : Fin 1024) :
    k0_pay2 (F := Ideal) a3 b3 (k0_pay2 a2 b2 (k0_pay2 a1 b1 (k0_pay2 a0 b0 (k0_pay1 (F := Ideal))))) (ix2 p r)
      = (((0 + ∑ k : Fin 1024, a0 (ix2 p k) * b0 (ix2 r k)) + ∑ k : Fin 1024, a1 (ix2 p k) * b1 (ix2 r k))
          + ∑ k : Fin 1024, a2 (ix2 p k) * b2 (ix2 r k)) + ∑ k : Fin 1024, a3 (ix2 p k) * b3 (ix2 r k) := by
  rw [Step.step_apply, Step.step_apply, Step.step_apply, Step.step_apply, Step.zero_apply]

/-- WHAT A WRITE-BACK WRITES: at the last reduction step of an output block, that block of the product. -/
theorem flushed_eq (c : Dev nD) (t : Fin cfg0.N) (hf : (cfg0.win 2).flush t = true) :
    (dats m 0 c).flushed 2 t = ((cfg0.win 2).blk t).view.read (Elt Ideal) (product m c) := by
  have hN : cfg0.N = 64 := N_0
  have ht := t.isLt
  have h3 : t.val % 4 = 3 := (flush0_2 t).mp hf
  show (cfg0.win 2).cut (grid0.coords t) ((dats m 0 c).after 2 t) = _
  rw [after0_2, Acc.block_written m c ⟨t.val - 3, by omega⟩ ⟨t.val - 2, by omega⟩ ⟨t.val - 1, by omega⟩ t
      (by dsimp only; omega) (by dsimp only; omega) (by dsimp only; omega) (by dsimp only; omega)]
  funext j
  have hp : (j 0).val < 1024 := (j 0).isLt
  have hr : (j 1).val < 1024 := (j 1).isLt
  obtain ⟨p, r, rfl⟩ : ∃ (p r : Fin 1024), j = ix2 p r :=
    ⟨⟨(j 0).val, hp⟩, ⟨(j 1).val, hr⟩, funext fun a => by match a with | ⟨0, _⟩ => rfl | ⟨1, _⟩ => rfl⟩
  refine Eq.trans (four_steps_apply (iblk m c 0 ⟨t.val - 3, by omega⟩) (iblk m c 1 ⟨t.val - 3, by omega⟩) (iblk m c 0 ⟨t.val - 2, by omega⟩) (iblk m c 1 ⟨t.val - 2, by omega⟩)
    (iblk m c 0 ⟨t.val - 1, by omega⟩) (iblk m c 1 ⟨t.val - 1, by omega⟩) (iblk m c 0 t) (iblk m c 1 t) p r) ?_
  rw [View.read_apply]
  have hemb : ((cfg0.win 2).blk t).view.emb (ix2 p r)
      = ix2 (⟨t.val / 16 * 1024 + p.val, by omega⟩ : Fin 4096) (⟨t.val / 4 % 4 * 1024 + r.val, by omega⟩ : Fin 4096) := by
    obtain ⟨-, -, -, -, e4, e5⟩ := Blocks.index_facts t
    funext a; apply Fin.ext
    match a with
    | ⟨0, _⟩ => show win0_2.index t (0 : Fin 2) * 1024 + 1 * p.val = t.val / 16 * 1024 + p.val; rw [e4]; omega
    | ⟨1, _⟩ => show win0_2.index t (1 : Fin 2) * 1024 + 1 * r.val = t.val / 4 % 4 * 1024 + r.val; rw [e5]; omega
  rw [hemb]
  show _ = ∑ k : Fin 4096, lhs m c (ix2 (⟨t.val / 16 * 1024 + p.val, by omega⟩ : Fin 4096) k)
      * rhs m c (ix2 (⟨t.val / 4 % 4 * 1024 + r.val, by omega⟩ : Fin 4096) k)
  rw [Cert.BlockMatmul.sum_four_runs]
  refine congrArg₂ (· + ·) (congrArg₂ (· + ·) (congrArg₂ (· + ·) (congrArg₂ (· + ·) rfl ?_) ?_) ?_) ?_
  all_goals
    refine Finset.sum_congr rfl fun k _ => congrArg₂ (· * ·) (Blocks.lhs_block m c _ p k _ _ ?_ ?_) (Blocks.rhs_block m c _ r k _ _ ?_ ?_)
    all_goals first | omega | (dsimp only; try omega)

/-- Every entry of the output lies in the block written back at the last reduction step of its (i, j). -/
theorem covered (i : S4096x4096.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 4096 := (i 1).isLt
  obtain ⟨t, ht⟩ : ∃ t : Fin cfg0.N, t.val = (i 0).val / 1024 * 16 + (i 1).val / 1024 * 4 + 3 :=
    ⟨⟨(i 0).val / 1024 * 16 + (i 1).val / 1024 * 4 + 3, by omega⟩, rfl⟩
  obtain ⟨-, -, -, -, e4, e5⟩ := Blocks.index_facts t
  refine ⟨t, (flush0_2 t).mpr (by omega), ?_⟩
  show i ∈ ((View.whole main_call0_v14).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- THE OUTPUT ARRAY after the kernel: the whole product. -/
theorem final (c : Dev nD) : (dats m 0 c).arrAt 2 cfg0.N = product m c :=
  (dats m 0 c).arrAt_eq_of_cover 2 (product m c) (flushed_eq m c) covered

/-- The program's result: the host reshapes the product's rows back to (4, 1024). -/
theorem result_eq (c : Dev nD) :
    Pipeline.afterTail₀ cfgs (dats m) 0 (V0 m) [hostOps1] c main_v0
      = shapeCast S4x1024x4096 (product m c) shapeCasts_S4096x4096_S4x1024x4096 := by
  unfold Pipeline.afterTail₀
  show StableHlo.after hostOps1 _ (Proc.devRef .tc main_v0) = _
  after_results
  have hw : Pipeline.withArrays spec0 c (V0 m c) (fun w => (dats m 0 c).arrAt w cfg0.N) (Proc.devRef .tc main_call0_v14)
      = product m c :=
    (Pipeline.withArrays_arr spec0 launch0.win.arr_inj c (V0 m c) (fun w => (dats m 0 c).arrAt w cfg0.N) 2).trans (final m c)
  show shapeCast S4x1024x4096 (Pipeline.withArrays spec0 c (V0 m c) (fun w => (dats m 0 c).arrAt w cfg0.N) (Proc.devRef .tc main_call0_v14))
      shapeCasts_S4096x4096_S4x1024x4096 = _
  rw [hw]

/-- THE KERNEL'S RUN, READ: the result array ends at the product with its rows split back into (4, 1024); the
    arguments end unchanged. -/
theorem run : θ_run defs (onTc (τ := τ) (main (F := Ideal))) ⟨m, fun _ => 0, ρ⟩ fun r => ∀ c : Dev nD,
      r.2.mem ((c.tc : Thread nD τ).loc main_v0) = shapeCast S4x1024x4096 (product m c) shapeCasts_S4096x4096_S4x1024x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Product

end
-- ==== Proof.Operands.lean ====
/-
  The two operands of the kernel's matrix product, as the host operations before the kernel leave them, read at an
  entry. The first is the data with its two leading axes merged (4 × 1024 rows → 4096 rows). The second is the
  weight masked by 32 × 32 blocks: the weight is viewed as 128 × 32 × 128 × 32, multiplied by the pooled block mask
  (entry (a, c) of a 128 × 128 array, converted to 0.0 / 1.0) repeated along the two inner axes, and viewed as
  4096 × 4096 again — so entry (n, k) is weight[n, k] · mask[n / 32, k / 32]. Both are then cast to bf16, which over
  the extended reals changes nothing.
-/
import proofs.«118523_j60327110639757_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Operands

open Cert.KernelIdeal Cert.KernelIdeal.Gen Idealize.ShloMosaic.ValueIdx

variable (m : (ℓ : Loc nD τ sig) → Buf (Elt Ideal) ℓ)

/-- The three argument arrays as the launch finds them, at their plain types. -/
abbrev dataArg (c : Dev nD) : S4x1024x4096.Idx → EReal := m ((c : Thread nD τ).loc main_arg0)
abbrev weightArg (c : Dev nD) : S4096x4096.Idx → EReal := m ((c : Thread nD τ).loc main_arg1)
abbrev maskArg (c : Dev nD) : IVec S4096x4096 32 := m ((c : Thread nD τ).loc main_arg2)

/-- The pooled block mask: entry (a, c) says whether the 32 × 32 block (a, c) of the integer mask has a positive sum. -/
def blockMask (x2 : IVec S4096x4096 32) : IVec S128x128 1 :=
  cmpf (F := Ideal) .ogt
    (Host.reduceAdd (sitofp .f32 (shapeCast S128x32x128x32 x2 shapeCasts_S4096x4096_S128x32x128x32)) (constant S_ .f32 0x00000000#32)
      reducesTo_S128x32x128x32_S128x128_d1_3 h_S_)
    (broadcastInDim S128x128 ![] bcast_S_S128x128 (constant S_ .f32 0x00000000#32))

/-- The first operand as the kernel finds it: the host operations' term. -/
theorem V_lhs (c : Dev nD) :
    (V m c main_call0_v13 : S4096x4096.Idx → Ideal .bf16)
      = truncf (F := Ideal) .bf16 (shapeCast S4096x4096 (m ((c : Thread nD τ).loc main_arg0)) shapeCasts_S4x1024x4096_S4096x4096) bitsLt_bf16_f32 := by
  show StableHlo.after hostOps0 (fun b => m (c, b)) (Proc.devRef .tc main_call0_v13) = _
  after_results
  rfl

/-- The second operand as the kernel finds it: the host operations' term. -/
theorem V_rhs (c : Dev nD) :
    (V m c main_call0_v11 : S4096x4096.Idx → Ideal .bf16)
      = truncf (F := Ideal) .bf16 (shapeCast S4096x4096
          (mulf (F := Ideal) (shapeCast S128x32x128x32 (m ((c : Thread nD τ).loc main_arg1)) shapeCasts_S4096x4096_S128x32x128x32)
            (broadcastInDim S128x32x128x32 ![0, 1, 2, 3] bcast_S128x1x128x1_S128x32x128x32_0_1_2_3
              (uitofp (F := Ideal) .f32 (broadcastInDim S128x1x128x1 ![0, 2] bcast_S128x128_S128x1x128x1_0_2
                (blockMask (m ((c : Thread nD τ).loc main_arg2)))))))
          shapeCasts_S128x32x128x32_S4096x4096) bitsLt_bf16_f32 := by
  show StableHlo.after hostOps0 (fun b => m (c, b)) (Proc.devRef .tc main_call0_v11) = _
  after_results
  rfl

/-! ## The two matrix operands read at an entry -/

/-- The first operand is the data with its two leading axes merged: row M is (M / 1024, M % 1024). The change of
    float format is the identity over the extended reals. -/
theorem lhs_apply (c : Dev nD) (M K : Fin 4096) :
    V m c main_call0_v13 (ix2 M K)
      = dataArg m c (ix3 (⟨M.val / 1024, by omega⟩ : Fin 4) (⟨M.val % 1024, by omega⟩ : Fin 1024) K) := by
  rw [V_lhs, truncf_apply]
  exact shapeCast_apply _ shapeCasts_S4x1024x4096_S4096x4096 (ix2 M K) (ix3 (⟨M.val / 1024, by omega⟩ : Fin 4) (⟨M.val % 1024, by omega⟩ : Fin 1024) K) (by
    rewrite [Shape.rowMajor_val_three, Shape.rowMajor_val_two]
    show (M.val / 1024 * 1024 + M.val % 1024) * 4096 + K.val = M.val * 4096 + K.val
    omega)

/-- The second operand is the weight times the block mask's entry of the 32 × 32 block the entry lies in. -/
theorem rhs_apply (c : Dev nD) (N K : Fin 4096) :
    V m c main_call0_v11 (ix2 N K)
      = weightArg m c (ix2 N K)
          * FloatOps.uitofp (F := Ideal) .f32 (blockMask (maskArg m c)
              (ix2 (⟨N.val / 32, by omega⟩ : Fin 128) (⟨K.val / 32, by omega⟩ : Fin 128))) := by
  have hN := N.isLt
  have hK := K.isLt
  rw [V_rhs, truncf_apply]
  rw [shapeCast_apply _ shapeCasts_S128x32x128x32_S4096x4096 (ix2 N K)
    (ix4 (⟨N.val / 32, by omega⟩ : Fin 128) (⟨N.val % 32, by omega⟩ : Fin 32) (⟨K.val / 32, by omega⟩ : Fin 128) (⟨K.val % 32, by omega⟩ : Fin 32)) (by
      rewrite [Shape.rowMajor_val_four, Shape.rowMajor_val_two]
      show ((N.val / 32 * 32 + N.val % 32) * 128 + K.val / 32) * 32 + K.val % 32 = N.val * 4096 + K.val
      omega)]
  rw [mulf_apply]
  rw [shapeCast_apply _ shapeCasts_S4096x4096_S128x32x128x32
    (ix4 (⟨N.val / 32, by omega⟩ : Fin 128) (⟨N.val % 32, by omega⟩ : Fin 32) (⟨K.val / 32, by omega⟩ : Fin 128) (⟨K.val % 32, by omega⟩ : Fin 32))
    (ix2 N K) (by
      rewrite [Shape.rowMajor_val_two, Shape.rowMajor_val_four]
      show N.val * 4096 + K.val = ((N.val / 32 * 32 + N.val % 32) * 128 + K.val / 32) * 32 + K.val % 32
      omega)]
  rw [broadcastInDim_apply _ bcast_S128x1x128x1_S128x32x128x32_0_1_2_3 _
    (ix4 (⟨N.val / 32, by omega⟩ : Fin 128) (⟨N.val % 32, by omega⟩ : Fin 32) (⟨K.val / 32, by omega⟩ : Fin 128) (⟨K.val % 32, by omega⟩ : Fin 32))
    (ix4 (⟨N.val / 32, by omega⟩ : Fin 128) (0 : Fin 1) (⟨K.val / 32, by omega⟩ : Fin 128) (0 : Fin 1)) (fun a => match a with
      | ⟨0, _⟩ => by show N.val / 32 = if (128 : Nat) = 1 then 0 else N.val / 32; rw [if_neg (by decide)]
      | ⟨1, _⟩ => by show 0 = if (1 : Nat) = 1 then 0 else N.val % 32; rw [if_pos rfl]
      | ⟨2, _⟩ => by show K.val / 32 = if (128 : Nat) = 1 then 0 else K.val / 32; rw [if_neg (by decide)]
      | ⟨3, _⟩ => by show 0 = if (1 : Nat) = 1 then 0 else K.val % 32; rw [if_pos rfl])]
  show _ * FloatOps.uitofp (F := Ideal) .f32 (broadcastInDim S128x1x128x1 ![0, 2] bcast_S128x128_S128x1x128x1_0_2
      (blockMask (m ((c : Thread nD τ).loc main_arg2)))
      (ix4 (⟨N.val / 32, by omega⟩ : Fin 128) (0 : Fin 1) (⟨K.val / 32, by omega⟩ : Fin 128) (0 : Fin 1))) = _
  rw [broadcastInDim_apply _ bcast_S128x128_S128x1x128x1_0_2 _
    (ix4 (⟨N.val / 32, by omega⟩ : Fin 128) (0 : Fin 1) (⟨K.val / 32, by omega⟩ : Fin 128) (0 : Fin 1))
    (ix2 (⟨N.val / 32, by omega⟩ : Fin 128) (⟨K.val / 32, by omega⟩ : Fin 128)) (fun a => match a with
      | ⟨0, _⟩ => by show N.val / 32 = if (128 : Nat) = 1 then 0 else N.val / 32; rw [if_neg (by decide)]
      | ⟨1, _⟩ => by show K.val / 32 = if (128 : Nat) = 1 then 0 else K.val / 32; rw [if_neg (by decide)])]

end Cert.KernelIdeal.Operands

end
-- ==== Proof.Bridge.lean ====
/-
  The kernel's result at an entry is the masked product of the specification: the product's row 1024·b + s is the
  data's row (b, s) against the masked weight's row n.
-/
import proofs.«118523_j60327110639757_2_alg».proof.Proof.KernelValue
import proofs.«118523_j60327110639757_2_alg».proof.Proof.Operands
import proofs.«118523_j60327110639757_2_alg».proof.Proof.Spec

set_option maxRecDepth 16384

noncomputable section

open Idealize.ShloMosaic Idealize.ShloMosaic.TcCoe Idealize.SL.Sem

namespace Cert.KernelIdeal.Product

open Cert.KernelIdeal Cert.KernelIdeal.Gen Cert.KernelIdeal.Operands Idealize.ShloMosaic.ValueIdx

variable (m : (ℓ : Loc nD τ sig) → Buf (Elt Ideal) ℓ)

/-- The kernel's result at entry (b, s, n): row 1024·b + s of the product, which is the masked product of the
    specification — the first operand's row M is the data's row (M / 1024, M % 1024), the second operand is the weight
    times its block's mask entry. -/
theorem kernel_apply (c : Dev nD) (b : Fin 4) (s : Fin 1024) (n : Fin 4096) :
    shapeCast S4x1024x4096 (product m c) shapeCasts_S4096x4096_S4x1024x4096 (ix3 b s n)
      = Cert.BlockMatmul.maskedProduct (dataArg m c) (weightArg m c) (blockMask (maskArg m c)) b s n := by
  have hb := b.isLt
  have hs := s.isLt
  rw [shapeCast_apply (product m c) shapeCasts_S4096x4096_S4x1024x4096 (ix3 b s n)
    (ix2 (⟨b.val * 1024 + s.val, by omega⟩ : Fin 4096) n) (by
      rewrite [Shape.rowMajor_val_two, Shape.rowMajor_val_three]
      show (b.val * 1024 + s.val) * 4096 + n.val = (b.val * 1024 + s.val) * 4096 + n.val
      rfl)]
  unfold Cert.BlockMatmul.maskedProduct
  show ∑ k : Fin 4096, lhs m c (ix2 (⟨b.val * 1024 + s.val, by omega⟩ : Fin 4096) k) * rhs m c (ix2 n k) = _
  refine Finset.sum_congr rfl fun k _ => ?_
  have hrow : ix3 (⟨(b.val * 1024 + s.val) / 1024, by omega⟩ : Fin 4) (⟨(b.val * 1024 + s.val) % 1024, by omega⟩ : Fin 1024) k = ix3 b s k :=
    funext fun a => Fin.ext (by
      match a with
      | ⟨0, _⟩ => show (b.val * 1024 + s.val) / 1024 = b.val; omega
      | ⟨1, _⟩ => show (b.val * 1024 + s.val) % 1024 = s.val; omega
      | ⟨2, _⟩ => rfl)
  have hl : lhs m c (ix2 (⟨b.val * 1024 + s.val, by omega⟩ : Fin 4096) k) = dataArg m c (ix3 b s k) :=
    (lhs_apply m c (⟨b.val * 1024 + s.val, by omega⟩ : Fin 4096) k).trans (congrArg (dataArg m c) hrow)
  have hr : rhs m c (ix2 n k) = weightArg m c (ix2 n k)
      * FloatOps.uitofp (F := Ideal) .f32 (blockMask (maskArg m c) (ix2 (⟨n.val / 32, by omega⟩ : Fin 128) (⟨k.val / 32, by omega⟩ : Fin 128))) :=
    rhs_apply m c n k
  rw [hl, hr]

end Cert.KernelIdeal.Product

end
-- ==== Proof.lean ====
/-
  The certificate of the block-masked matrix product (a Pallas matmul kernel accumulated over a reduction grid axis,
  against jnp's einsum).

  Both programs pool the integer element mask into a 128 × 128 block mask (a 32 × 32 block is active when its sum is
  positive), mask the weight with it — the kernel's program by one broadcast multiply over the 128 × 32 × 128 × 32 view,
  the reference by repeating the block mask 32 times along each axis — and contract the data's last axis with the
  masked weight's last axis: out[b, s, n] = Σ_k data[b, s, k] · (weight[n, k] · mask[n / 32, k / 32]). The kernel
  tiles the 4096 × 4096 × 4096 product into 1024-blocks over a 4 × 4 × 4 grid, the reduction axis innermost, a scratch
  block carrying the partial sums; over the extended reals the casts to bf16 are identities, and the four partial sums
  added in order from zero are the whole sum (addition of extended reals is commutative and associative; no finiteness
  is used, so the precondition is never opened).

    frame_Kernel, frame_KernelIdeal — the generated frames.
    frame_ReferenceIdeal — the reference's run with the result dropped.
    preserves_Kernel_KernelIdeal — the idealization rewrote nothing: `True`.
    algebraic_KernelIdeal_ReferenceIdeal — the kernel's run read back (KernelValue.lean), the reference's run read
      back (RefRun.lean, RefRead.lean, RefValue.lean), and both results the masked product of Spec.lean, entry by entry
      (Bridge.lean for the kernel's side); the two programs' block masks are one term.
-/
import proofs.«118523_j60327110639757_2_alg».proof.Defs
import proofs.«118523_j60327110639757_2_alg».proof.Proof.Gen.Kernel
import proofs.«118523_j60327110639757_2_alg».proof.Proof.Gen.Kernel.Frame
import proofs.«118523_j60327110639757_2_alg».proof.Proof.Gen.KernelIdeal
import proofs.«118523_j60327110639757_2_alg».proof.Proof.Gen.KernelIdeal.Frame
import proofs.«118523_j60327110639757_2_alg».proof.Proof.Gen.ReferenceIdeal
import proofs.«118523_j60327110639757_2_alg».proof.Proof.Gen.Pre_finite_inputs
import proofs.«118523_j60327110639757_2_alg».proof.Proof.RefRead
import proofs.«118523_j60327110639757_2_alg».proof.Proof.RefValue
import proofs.«118523_j60327110639757_2_alg».proof.Proof.KernelValue
import proofs.«118523_j60327110639757_2_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs pool the mask by the same operations: one term. -/
theorem mask_eq (x2 : IVec Cert.KernelIdeal.S4096x4096 32) :
    Cert.ReferenceIdeal.ReadP.val_main_v4 (F := Ideal) x2 = Cert.KernelIdeal.Operands.blockMask x2 := rfl

/-- Over the extended reals the kernel's result array ends at the product reshaped (KernelValue.lean) and the
    reference's at its `dot_general` (the reference's run) of arguments that agree; entry by entry both are the masked
    product. -/
theorem algebraic : Cert.algebraic_KernelIdeal_ReferenceIdeal := by
  intro m ρ m' ρ' _ hagree
  refine ⟨fun c => shapeCast Cert.KernelIdeal.S4x1024x4096 (Cert.KernelIdeal.Product.product m c)
    Cert.KernelIdeal.Facts₀.shapeCasts_S4096x4096_S4x1024x4096, Cert.KernelIdeal.Product.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, (hagree c).1, (hagree c).2.1, (hagree c).2.2]
  funext i
  obtain ⟨b, s, n, rfl⟩ : ∃ (b : Fin 4) (s : Fin 1024) (n : Fin 4096), i = ix3 b s n := ⟨i 0, i 1, i 2, eq_ix3 i⟩
  refine (Cert.ReferenceIdeal.RefValue.reference_apply _ _ _ b s n).trans ?_
  rw [mask_eq]
  exact (Cert.KernelIdeal.Product.kernel_apply m c b s n).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
